-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x128 : Shape := ⟨2, ![2000000, 128]⟩
abbrev S2000000 : Shape := ⟨1, ![2000000]⟩
abbrev S200000x128 : Shape := ⟨2, ![200000, 128]⟩
abbrev S2000x128 : Shape := ⟨2, ![2000, 128]⟩
abbrev S128 : Shape := ⟨1, ![128]⟩
abbrev S128x128 : Shape := ⟨2, ![128, 128]⟩
abbrev S_ : Shape := ⟨0, ![]⟩

class Facts : Prop where
  bcast_S_S2000000x128 : S_.BroadcastsInDim S2000000x128 (![] : Fin 0 → Fin S2000000x128.rank)
  reducesTo_S2000000x128_S_d0_1 : S2000000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S2000x128 : S_.BroadcastsInDim S2000x128 (![] : Fin 0 → Fin S2000x128.rank)
  reducesTo_S2000x128_S_d0_1 : S2000x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S2000000x128 .f32) (main_arg1 : IVec S2000000 32) (main_arg2 : IVec S2000000 32) (main_arg3 : FVec F S200000x128 .f32) (main_arg4 : FVec F S2000x128 .f32) (main_arg5 : FVec F S128 .f32) (main_arg6 : FVec F S128x128 .f32) (main_arg7 : FVec F S128 .f32) : IVec S_ 1 :=
  let main_v0 : FVec F S2000000x128 .f32 := Host.absf main_arg0
  let main_cst : FVec F S_ .f32 := constant S_ .f32 0x7F800000#32
  let main_v1 : FVec F S2000000x128 .f32 := broadcastInDim S2000000x128 ![] bcast_S_S2000000x128 main_cst
  let main_v2 : IVec S2000000x128 1 := cmpf .olt main_v0 main_v1
  let main_c : IVec S_ 1 := constantI S_ 1 1#1
  let main_v3 : IVec S_ 1 := (fun x v => Host.reduce IntOp.andi x v reducesTo_S2000000x128_S_d0_1 h_S_) main_v2 main_c
  let main_v4 : FVec F S200000x128 .f32 := Host.absf main_arg3
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S2000x128 .f32 := Host.absf main_arg4
  let main_cst_2 : FVec F S_ .f32 := constant S_ .f32 0x7F800000#32
  let main_v10 : FVec F S2000x128 .f32 := broadcastInDim S2000x128 ![] bcast_S_S2000x128 main_cst_2
  let main_v11 : IVec S2000x128 1 := cmpf .olt main_v9 main_v10
  let main_c_3 : IVec S_ 1 := constantI S_ 1 1#1
  let main_v12 : IVec S_ 1 := (fun x v => Host.reduce IntOp.andi x v reducesTo_S2000x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S2000000x128 : Shape := ⟨2, ![2000000, 128]⟩
abbrev S2000000 : Shape := ⟨1, ![2000000]⟩
abbrev S200000x128 : Shape := ⟨2, ![200000, 128]⟩
abbrev S2000x128 : Shape := ⟨2, ![2000, 128]⟩
abbrev S128 : Shape := ⟨1, ![128]⟩
abbrev S128x128 : Shape := ⟨2, ![128, 128]⟩
abbrev S_ : Shape := ⟨0, ![]⟩
abbrev S2000000x1 : Shape := ⟨2, ![2000000, 1]⟩
abbrev S1x128 : Shape := ⟨2, ![1, 128]⟩
abbrev S8000x128 : Shape := ⟨2, ![8000, 128]⟩

abbrev nBuf : Space → Nat
  | .hbm => 32
  | .vmem => 8
  | .smem => 0
  | _ => 0

abbrev bufTy : (tb : Table) → Fin (tcTables nBuf tb) → BufTy
  | .hbm, ⟨0, _⟩ => ⟨S2000000x128, .f32⟩
  | .hbm, ⟨1, _⟩ => ⟨S2000000, .i32⟩
  | .hbm, ⟨2, _⟩ => ⟨S2000000, .i32⟩
  | .hbm, ⟨3, _⟩ => ⟨S200000x128, .f32⟩
  | .hbm, ⟨4, _⟩ => ⟨S2000x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S2000000, .i32⟩
  | .hbm, ⟨10, _⟩ => ⟨S2000000, .i1⟩
  | .hbm, ⟨11, _⟩ => ⟨S_, .i32⟩
  | .hbm, ⟨12, _⟩ => ⟨S2000000, .i32⟩
  | .hbm, ⟨13, _⟩ => ⟨S2000000, .i32⟩
  | .hbm, ⟨14, _⟩ => ⟨S2000000, .i32⟩
  | .hbm, ⟨15, _⟩ => ⟨S2000000x1, .i32⟩
  | .hbm, ⟨16, _⟩ => ⟨S2000000x128, .f32⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S2000000x128, .f32⟩
  | .hbm, ⟨26, _⟩ => ⟨S2000000x128, .f32⟩
  | .hbm, ⟨27, _⟩ => ⟨S128, .f32⟩
  | .hbm, ⟨28, _⟩ => ⟨S1x128, .f32⟩
  | .hbm, ⟨29, _⟩ => ⟨S128x128, .f32⟩
  | .hbm, ⟨30, _⟩ => ⟨S128x128, .bf16⟩
  | .hbm, ⟨31, _⟩ => ⟨S2000000x128, .f32⟩
  | .local _ .vmem, ⟨0, _⟩ => ⟨S8000x128, .f32⟩
  | .local _ .vmem, ⟨1, _⟩ => ⟨S8000x128, .f32⟩
  | .local _ .vmem, ⟨2, _⟩ => ⟨S128x128, .bf16⟩
  | .local _ .vmem, ⟨3, _⟩ => ⟨S1x128, .f32⟩
  | .local _ .vmem, ⟨4, _⟩ => ⟨S8000x128, .f32⟩
  | .local _ .vmem, ⟨5, _⟩ => ⟨S8000x128, .f32⟩
  | .local _ .vmem, ⟨6, _⟩ => ⟨S8000x128, .f32⟩
  | .local _ .vmem, ⟨7, _⟩ => ⟨S8000x128, .f32⟩
  | _, _ => ⟨S2000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_c_1 : Ref sig .tc := ⟨.hbm, 17, rfl⟩
abbrev main_call0_v7 : Ref sig .tc := ⟨.hbm, 18, rfl⟩
abbrev main_call0_v8 : Ref sig .tc := ⟨.hbm, 19, rfl⟩
abbrev main_call0_c_2 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_v0 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S128_S1x128 : S128.ShapeCasts S1x128
  transposes_S128x128_S128x128_1_0 : S128x128.Transposes [1, 0] S128x128
  bitsLt_bf16_f32 : FTy.bits .bf16 < FTy.bits .f32
  inb_S8000x128_S8000x128_0_0 : ∀ a, (![0, 0] : Fin 2 → Nat) a + S8000x128.size a ≤ S8000x128.size a
  h_S8000x128 : 0 < S8000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S8000x128_S8000x128 : S8000x128.ShapeCasts S8000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  gather_S200000x128_S2000000x1_S2000000x128_1_0_n_n_0_1_1128_wf : GatherDims.WF S200000x128 S2000000x1 S2000000x128 [1] [0] [] [0] [] 1 ![1, 128]
  gather_S2000x128_S2000000x1_S2000000x128_1_0_n_n_0_1_1128_wf : GatherDims.WF S2000x128 S2000000x1 S2000000x128 [1] [0] [] [0] [] 1 ![1, 128]
  dot_S8000x128_S128x128_S8000x128_1_0_0_1_n_n_wf : DotDims.WF S8000x128 S128x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S2000000x128.size a
  hwx0_0 : ∀ i : grid0.Coords, EltTy.bits .f32 = 32 ∨ (Rect.block (s := S2000000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S2000000x128.size a
  hwx0_3 : ∀ i : grid0.Coords, EltTy.bits .f32 = 32 ∨ (Rect.block (s := S2000000x128) S8000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S2000000x128.size a
  hwx0_4 : ∀ i : grid0.Coords, EltTy.bits .f32 = 32 ∨ (Rect.block (s := S2000000x128) S8000x128.size (cc0_transform_4 i) (hinb0_4 i)).WholeWords (EltTy.packing .f32)

variable [Facts₀]

def gather_S200000x128_S2000000x1_S2000000x128_1_0_n_n_0_1_1128 : GatherDims S200000x128 S2000000x1 S2000000x128 where
  offsetDims := [1]
  collapsedSliceDims := [0]
  operandBatchingDims := []
  startIndicesBatchingDims := []
  startIndexMap := [0]
  indexVectorDim := 1
  sliceSizes := ![1, 128]
  wf := gather_S200000x128_S2000000x1_S2000000x128_1_0_n_n_0_1_1128_wf
def gather_S2000x128_S2000000x1_S2000000x128_1_0_n_n_0_1_1128 : GatherDims S2000x128 S2000000x1 S2000000x128 where
  offsetDims := [1]
  collapsedSliceDims := [0]
  operandBatchingDims := []
  startIndicesBatchingDims := []
  startIndexMap := [0]
  indexVectorDim := 1
  sliceSizes := ![1, 128]
  wf := gather_S2000x128_S2000000x1_S2000000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v18) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v14) S8000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2000000x128 : Shape := ⟨2, ![2000000, 128]⟩
abbrev S2000000 : Shape := ⟨1, ![2000000]⟩
abbrev S200000x128 : Shape := ⟨2, ![200000, 128]⟩
abbrev S2000x128 : Shape := ⟨2, ![2000, 128]⟩
abbrev S128 : Shape := ⟨1, ![128]⟩
abbrev S128x128 : Shape := ⟨2, ![128, 128]⟩
abbrev S1x128 : Shape := ⟨2, ![1, 128]⟩
abbrev S_ : Shape := ⟨0, ![]⟩
abbrev S2000000x1 : Shape := ⟨2, ![2000000, 1]⟩

abbrev nBuf : Space → Nat
  | .hbm => 38
  | .vmem => 0
  | .smem => 0
  | _ => 0

abbrev bufTy : (tb : Table) → Fin (tcTables nBuf tb) → BufTy
  | .hbm, ⟨0, _⟩ => ⟨S2000000x128, .f32⟩
  | .hbm, ⟨1, _⟩ => ⟨S2000000, .i32⟩
  | .hbm, ⟨2, _⟩ => ⟨S2000000, .i32⟩
  | .hbm, ⟨3, _⟩ => ⟨S200000x128, .f32⟩
  | .hbm, ⟨4, _⟩ => ⟨S2000x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S2000000x128, .f32⟩
  | .hbm, ⟨9, _⟩ => ⟨S1x128, .f32⟩
  | .hbm, ⟨10, _⟩ => ⟨S2000000x128, .f32⟩
  | .hbm, ⟨11, _⟩ => ⟨S2000000x128, .f32⟩
  | .hbm, ⟨12, _⟩ => ⟨S_, .i32⟩
  | .hbm, ⟨13, _⟩ => ⟨S2000000, .i32⟩
  | .hbm, ⟨14, _⟩ => ⟨S2000000, .i1⟩
  | .hbm, ⟨15, _⟩ => ⟨S_, .i32⟩
  | .hbm, ⟨16, _⟩ => ⟨S2000000, .i32⟩
  | .hbm, ⟨17, _⟩ => ⟨S2000000, .i32⟩
  | .hbm, ⟨18, _⟩ => ⟨S2000000, .i32⟩
  | .hbm, ⟨19, _⟩ => ⟨S2000000x1, .i32⟩
  | .hbm, ⟨20, _⟩ => ⟨S2000000x128, .f32⟩
  | .hbm, ⟨21, _⟩ => ⟨S2000000x128, .f32⟩
  | .hbm, ⟨22, _⟩ => ⟨S_, .i32⟩
  | .hbm, ⟨23, _⟩ => ⟨S2000000, .i32⟩
  | .hbm, ⟨24, _⟩ => ⟨S2000000, .i1⟩
  | .hbm, ⟨25, _⟩ => ⟨S_, .i32⟩
  | .hbm, ⟨26, _⟩ => ⟨S2000000, .i32⟩
  | .hbm, ⟨27, _⟩ => ⟨S2000000, .i32⟩
  | .hbm, ⟨28, _⟩ => ⟨S2000000, .i32⟩
  | .hbm, ⟨29, _⟩ => ⟨S2000000x1, .i32⟩
  | .hbm, ⟨30, _⟩ => ⟨S2000000x128, .f32⟩
  | .hbm, ⟨31, _⟩ => ⟨S2000000x128, .f32⟩
  | .hbm, ⟨32, _⟩ => ⟨S1x128, .f32⟩
  | .hbm, ⟨33, _⟩ => ⟨S2000000x128, .f32⟩
  | .hbm, ⟨34, _⟩ => ⟨S2000000x128, .f32⟩
  | .hbm, ⟨35, _⟩ => ⟨S_, .f32⟩
  | .hbm, ⟨36, _⟩ => ⟨S2000000x128, .f32⟩
  | .hbm, ⟨37, _⟩ => ⟨S2000000x128, .f32⟩
  | _, _ => ⟨S2000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S2000000x128_0_1 : S1x128.BroadcastsInDim S2000000x128 (![0, 1] : Fin 2 → Fin S2000000x128.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x128 : S_.BroadcastsInDim S2000000x128 (![] : Fin 0 → Fin S2000000x128.rank)
  dot_S2000000x128_S128x128_S2000000x128_1_1_0_0_n_n_wf : DotDims.WF S2000000x128 S128x128 S2000000x128 [1] [1] [0] [0] [] []
  gather_S200000x128_S2000000x1_S2000000x128_1_0_n_n_0_1_1128_wf : GatherDims.WF S200000x128 S2000000x1 S2000000x128 [1] [0] [] [0] [] 1 ![1, 128]
  gather_S2000x128_S2000000x1_S2000000x128_1_0_n_n_0_1_1128_wf : GatherDims.WF S2000x128 S2000000x1 S2000000x128 [1] [0] [] [0] [] 1 ![1, 128]

variable [Facts₀]

def dot_S2000000x128_S128x128_S2000000x128_1_1_0_0_n_n : DotDims S2000000x128 S128x128 S2000000x128 where
  lhsContracting := [1]
  rhsContracting := [1]
  lhsNonContracting := [0]
  rhsNonContracting := [0]
  lhsBatch := []
  rhsBatch := []
  wf := dot_S2000000x128_S128x128_S2000000x128_1_1_0_0_n_n_wf
def gather_S200000x128_S2000000x1_S2000000x128_1_0_n_n_0_1_1128 : GatherDims S200000x128 S2000000x1 S2000000x128 where
  offsetDims := [1]
  collapsedSliceDims := [0]
  operandBatchingDims := []
  startIndicesBatchingDims := []
  startIndexMap := [0]
  indexVectorDim := 1
  sliceSizes := ![1, 128]
  wf := gather_S200000x128_S2000000x1_S2000000x128_1_0_n_n_0_1_1128_wf
def gather_S2000x128_S2000000x1_S2000000x128_1_0_n_n_0_1_1128 : GatherDims S2000x128 S2000000x1 S2000000x128 where
  offsetDims := [1]
  collapsedSliceDims := [0]
  operandBatchingDims := []
  startIndicesBatchingDims := []
  startIndexMap := [0]
  indexVectorDim := 1
  sliceSizes := ![1, 128]
  wf := gather_S2000x128_S2000000x1_S2000000x128_1_0_n_n_0_1_1128_wf

class Facts : Prop extends Facts₀ where

variable [Facts]
-- ==== Proof.AverageSpec.lean ====
/-
  The result both programs compute, as ONE function of the argument arrays, entry by entry.

  For a nonzero entry `n` (a row of `values`) and an output feature `o`:

      out[n, o] = ( Σ_d values[n, d] · W[o, d]  +  b[o]  +  S[n, o]  +  U[n, o]  +  g[o] ) · ¼

  where `S` is the array of rows gathered from the scene-point table (row `n` is the table's row `col_idx[n]`)
  and `U` the array of rows gathered from the view table (row `n` is the table's row `row_idx[n]`): the mean of
  four feature sources, one of them a linear layer. The two gathered arrays are parameters here: both programs
  gather with the same operation from the same tables at the same indices, so what a gather reads never has to
  be opened.

  The two programs group the five summands differently — the reference adds them left to right in the order
  above, the kernel adds the two gathered rows to each other and the two bias vectors to each other first —
  and addition of extended reals is commutative and associative at every value, infinite ones included
  (`regroup`), so no finiteness is needed.
-/
import Idealize.ShloMosaic.PureOps.Ideal
import Idealize.ShloMosaic.Lib.ValueIdx

noncomputable section

namespace Cert.AverageSpec

open Idealize.ShloMosaic Idealize.ShloMosaic.ValueIdx
open scoped BigOperators

/-- The shape of `values`, of the two gathered arrays and of the result: one row of 128 features per nonzero entry. -/
abbrev Rows : Shape := ⟨2, ![2000000, 128]⟩
/-- The shape of the linear layer's weight matrix, `W[o, d]`. -/
abbrev Weights : Shape := ⟨2, ![128, 128]⟩
/-- The shape of a feature vector (the bias `b`, the global features `g`). -/
abbrev Feat : Shape := ⟨1, ![128]⟩

/-- One quarter, as the f32 word both programs spell. It is the same word on both sides and is never evaluated. -/
abbrev quarter : EReal := Ideal.ofBits .f32 0x3E800000#32

/-- The linear layer without its bias: `Σ_d values[n, d] · W[o, d]`. -/
def linear (vals : Rows.Idx → EReal) (w : Weights.Idx → EReal) (n : Fin 2000000) (o : Fin 128) : EReal :=
  ∑ d : Fin 128, vals (ix2 n d) * w (ix2 o d)

/-- The result at row `n`, feature `o`: the five summands in the reference's order, times one quarter. -/
def averagedAt (vals : Rows.Idx → EReal) (w : Weights.Idx → EReal) (b g : Feat.Idx → EReal) (S U : Rows.Idx → EReal)
    (n : Fin 2000000) (o : Fin 128) : EReal :=
  ((((linear vals w n o + b (ix1 o)) + S (ix2 n o)) + U (ix2 n o)) + g (ix1 o)) * quarter

/-- The result array. -/
def averaged (vals : Rows.Idx → EReal) (w : Weights.Idx → EReal) (b g : Feat.Idx → EReal) (S U : Rows.Idx → EReal) :
    Rows.Idx → EReal :=
  fun i => averagedAt vals w b g S U (i 0) (i 1)

/-- The result array at an index given by its coordinates. -/
theorem averaged_ix2 (vals : Rows.Idx → EReal) (w : Weights.Idx → EReal) (b g : Feat.Idx → EReal) (S U : Rows.Idx → EReal)
    (n : Fin 2000000) (o : Fin 128) : averaged vals w b g S U (ix2 n o) = averagedAt vals w b g S U n o := rfl

/-- The kernel's grouping of the five summands is the reference's: `(a + (c + d)) + (b + e) = (((a + b) + c) + d) + e`,
    by commutativity and associativity alone, so at infinite values too. -/
theorem regroup (a b c d e : EReal) : (a + (c + d)) + (b + e) = (((a + b) + c) + d) + e := by
  abel

end Cert.AverageSpec

end
-- ==== Proof.KernelPayload.lean ====
/-
  What the kernel's body stores, read at one entry of a block.

  At a grid point the body loads a block `x` of 8000 rows of `values`, the whole transposed weight matrix `wt`
  (`wt[d, o] = W[o, d]`), the matching block `r` of the pre-added gathered rows, and the one-row array `bg` of the
  pre-added biases, and stores

      ( x · wt  +  r  +  bg broadcast over the rows ) · ¼ .

  At the ideal values a narrowing of the float format is the identity, a matrix product into a zero accumulator is
  the plain sum over the contracted axis, and a shape cast to the same shape is the identity, so at row `p`,
  feature `q` of the block the stored value is

      ( Σ_k x[p, k] · wt[k, q]  +  r[p, q]  +  bg[0, q] ) · ¼ .
-/
import proofs.«144336_j33088428049082_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-- The block product's dimension numbers: rows of the left operand against columns of the right, one contracted axis
    of extent 128. -/
abbrev blockDot : DotDims S8000x128 S128x128 S8000x128 := dot_S8000x128_S128x128_S8000x128_1_0_0_1_n_n

/-- The left operand is read in the output's row … -/
theorem lhs_row (j : S8000x128.Idx) (k : blockDot.contr.Idx) : (blockDot.lhsIdx j k 0).val = (j 0).val := by
  unfold DotDims.lhsIdx
  rw [dif_neg (show ¬(0 : Fin S8000x128.rank) ∈ blockDot.lhsBatch by decide),
    dif_pos (show (0 : Fin S8000x128.rank) ∈ blockDot.lhsNonContracting by decide)]
  rfl
/-- … at the contraction position, -/
theorem lhs_contr (j : S8000x128.Idx) (k : blockDot.contr.Idx) : (blockDot.lhsIdx j k 1).val = (k ⟨0, by decide⟩).val :=
  blockDot.lhsIdx_val_of_single rfl j k
/-- the right operand at the contraction position … -/
theorem rhs_contr (j : S8000x128.Idx) (k : blockDot.contr.Idx) : (blockDot.rhsIdx j k 0).val = (k ⟨0, by decide⟩).val :=
  blockDot.rhsIdx_val_of_single rfl j k
/-- … in the output's column. -/
theorem rhs_col (j : S8000x128.Idx) (k : blockDot.contr.Idx) : (blockDot.rhsIdx j k 1).val = (j 1).val := by
  unfold DotDims.rhsIdx
  rw [dif_neg (show ¬(1 : Fin S128x128.rank) ∈ blockDot.rhsBatch by decide),
    dif_pos (show (1 : Fin S128x128.rank) ∈ blockDot.rhsNonContracting by decide)]
  rfl

/-- The block product into a zero accumulator, at row `p` and column `q`: `Σ_k a[p, k] · w[k, q]`. -/
theorem blockProduct_apply (a : FVec Ideal S8000x128 .bf16) (w : FVec Ideal S128x128 .bf16) (p : Fin 8000) (q : Fin 128) :
    matmul blockDot none a w (constant (F := Ideal) S8000x128 .f32 0x00000000#32) (ix2 p q)
      = ∑ k : Fin 128, a (ix2 p k) * w (ix2 k q) := by
  simp only [matmul]
  rw [Ideal.matmul_constant_zero_apply, ← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun ax => Fin.ext (by
    match ax with
    | ⟨0, _⟩ => exact lhs_row _ _
    | ⟨1, _⟩ => exact (lhs_contr _ _).trans hk)
  have er : blockDot.rhsIdx (ix2 p q) ((contrEquiv1 blockDot 128 rfl rfl).symm k) = ix2 k q := funext fun ax => Fin.ext (by
    match ax with
    | ⟨0, _⟩ => exact (rhs_contr _ _).trans hk
    | ⟨1, _⟩ => exact rhs_col _ _)
  rw [el, er]

/-- The stored value at row `p`, feature `q` of the block. -/
theorem payload_apply (x : FVec Ideal S8000x128 .f32) (wt : FVec Ideal S128x128 .bf16) (r : FVec Ideal S8000x128 .f32)
    (bg : FVec Ideal S1x128 .f32) (p : Fin 8000) (q : Fin 128) :
    k0_pay1 x wt r bg (ix2 p q)
      = (((∑ k : Fin 128, x (ix2 p k) * wt (ix2 k q)) + r (ix2 p q)) + bg (ix2 (0 : Fin 1) q))
          * Ideal.ofBits .f32 0x3E800000#32 := by
  unfold k0_pay1
  simp only [mulf_apply, addf_apply, broadcast_apply, shapeCast_self]
  rw [blockProduct_apply, broadcastTo_1b_ab_apply]
  rfl

end Cert.KernelIdeal.Payload

end
-- ==== Proof.KernelBlock.lean ====
/-
  On one block the kernel stores the specification's function.

  Suppose the four loaded blocks are what they should be: row `p` of `x` is row `row p` of `values`, `wt` is `W`
  transposed, row `p` of `r` is row `row p` of `S + U`, and `bg` is the one row `b + g`. Then the stored value at
  `(p, q)` is

      ( Σ_k values[row p, k] · W[q, k]  +  (S + U)[row p, q]  +  (b + g)[q] ) · ¼ ,

  which is the specification's `( Σ + b + S + U + g ) · ¼` at `(row p, q)` after regrouping the five summands
  (`AverageSpec.regroup`: commutativity and associativity of addition on the extended reals, no finiteness).
-/
import proofs.«144336_j33088428049082_2_alg».proof.Proof.KernelPayload
import proofs.«144336_j33088428049082_2_alg».proof.Proof.AverageSpec

noncomputable section

namespace Cert.KernelIdeal.Payload

open Cert.KernelIdeal Cert.KernelIdeal.Gen Idealize.ShloMosaic Idealize.ShloMosaic.ValueIdx Cert.AverageSpec
open scoped BigOperators

/-- The stored value at `(p, q)` of a block whose rows are the rows `row p` of the arrays is the specification at
    `(row p, q)`. -/
theorem payload_eq_averagedAt (x : FVec Ideal S8000x128 .f32) (wt : FVec Ideal S128x128 .bf16) (r : FVec Ideal S8000x128 .f32)
    (bg : FVec Ideal S1x128 .f32)
    (vals : Rows.Idx → EReal) (w : Weights.Idx → EReal) (b g : Feat.Idx → EReal) (S U : Rows.Idx → EReal)
    (row : Fin 8000 → Fin 2000000)
    (hx : ∀ (p : Fin 8000) (k : Fin 128), x (ix2 p k) = vals (ix2 (row p) k))
    (hw : ∀ k q : Fin 128, wt (ix2 k q) = w (ix2 q k))
    (hr : ∀ (p : Fin 8000) (q : Fin 128), r (ix2 p q) = S (ix2 (row p) q) + U (ix2 (row p) q))
    (hbg : ∀ q : Fin 128, bg (ix2 (0 : Fin 1) q) = b (ix1 q) + g (ix1 q))
    (p : Fin 8000) (q : Fin 128) :
    k0_pay1 (F := Ideal) x wt r bg (ix2 p q) = averagedAt vals w b g S U (row p) q := by
  rw [payload_apply, hr, hbg, regroup]
  unfold averagedAt linear
  simp only [hx, hw]

end Cert.KernelIdeal.Payload

end
-- ==== Proof.KernelHost.lean ====
/-
  The three arrays the host computes before the kernel is launched, as functions of the argument arrays.

  The kernel's four inputs are `values` itself and three arrays computed on the host just before:
  * the transposed weight matrix, `wt[d, o] = W[o, d]` (a transpose, then a narrowing of the float format, which is the
    identity at the ideal values);
  * the pre-added biases as one row, `bg[0, o] = b[o] + g[o]` (a sum of two vectors, then a reshape to one row);
  * the pre-added gathered rows, `r[n, o] = S[n, o] + U[n, o]`, where `S` gathers the scene-point table's rows at the
    column indices and `U` the view table's rows at the row indices (a negative index first moved up by the table's
    height, as array indexing does). The two gathers are kept as they are printed: the reference gathers with the same
    operation, so which row a gather reads is never opened.
-/
import proofs.«144336_j33088428049082_2_alg».proof.Proof.Gen.KernelIdeal.Frame
import Idealize.ShloMosaic.Lib.StableHlo.Run
import Idealize.ShloMosaic.Lib.ValueIdx
import Idealize.ShloMosaic.Lib.ValueLayout
import Idealize.ShloMosaic.PureOps.Ideal

noncomputable section

namespace Cert.KernelIdeal.HostArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The rows of the scene-point table at the column indices: `S[n, ·] = scene[col[n], ·]`, a negative index first moved up
    by the table's 200000 rows. -/
def sceneRows (col : IVec S2000000 32) (scene : FVec Ideal S200000x128 .f32) : FVec Ideal S2000000x128 .f32 :=
  Host.gather gather_S200000x128_S2000000x1_S2000000x128_1_0_n_n_0_1_1128 scene
    (broadcastInDim S2000000x1 ![0] bcast_S2000000_S2000000x1_0
      (select (cmpi .slt col (broadcastInDim S2000000 ![] bcast_S_S2000000 (constantI S_ 32 0#32)))
        (addi col (broadcastInDim S2000000 ![] bcast_S_S2000000 (constantI S_ 32 200000#32))) col))

/-- The rows of the view table at the row indices: `U[n, ·] = view[row[n], ·]`, a negative index first moved up by the
    table's 2000 rows. -/
def viewRows (row : IVec S2000000 32) (view : FVec Ideal S2000x128 .f32) : FVec Ideal S2000000x128 .f32 :=
  Host.gather gather_S2000x128_S2000000x1_S2000000x128_1_0_n_n_0_1_1128 view
    (broadcastInDim S2000000x1 ![0] bcast_S2000000_S2000000x1_0
      (select (cmpi .slt row (broadcastInDim S2000000 ![] bcast_S_S2000000 (constantI S_ 32 0#32)))
        (addi row (broadcastInDim S2000000 ![] bcast_S_S2000000 (constantI S_ 32 2000#32))) row))

set_option maxHeartbeats 2000000 in
/-- When the kernel is launched its fourth input holds the two gathered arrays added. -/
theorem gathered_eq (c : Dev nD) :
    (V m c main_call0_v14 : S2000000x128.Idx → EReal)
      = addf (sceneRows (m ((c : Thread nD τ).loc main_arg2)) (m ((c : Thread nD τ).loc main_arg3)))
          (viewRows (m ((c : Thread nD τ).loc main_arg1)) (m ((c : Thread nD τ).loc main_arg4))) := by
  dsimp only [V, hostOps0]
  after_results_simp
  rfl

/-- The gathered input at an index: `S + U` there. -/
theorem gathered_apply (c : Dev nD) (i : S2000000x128.Idx) :
    (V m c main_call0_v14 : S2000000x128.Idx → EReal) i
      = sceneRows (m ((c : Thread nD τ).loc main_arg2)) (m ((c : Thread nD τ).loc main_arg3)) i
        + viewRows (m ((c : Thread nD τ).loc main_arg1)) (m ((c : Thread nD τ).loc main_arg4)) i := by
  rw [gathered_eq]
  rfl

/-- The two bias vectors added and laid as one row: `bg[0, o] = b[o] + g[o]`. -/
def biasRow (b g : FVec Ideal S128 .f32) : FVec Ideal S1x128 .f32 :=
  shapeCast S1x128 (addf b g) shapeCasts_S128_S1x128

/-- The weight matrix transposed (and narrowed to the matrix unit's format, the identity at the ideal values):
    `wt[d, o] = W[o, d]`. -/
def weightsT (w : FVec Ideal S128x128 .f32) : FVec Ideal S128x128 .bf16 :=
  truncf .bf16 (transpose S128x128 [1, 0] w transposes_S128x128_S128x128_1_0) bitsLt_bf16_f32

/-- When the kernel is launched its third input holds the bias row. -/
theorem biasRow_eq (c : Dev nD) :
    (V m c main_call0_v16 : S1x128.Idx → EReal)
      = biasRow (m ((c : Thread nD τ).loc main_arg7)) (m ((c : Thread nD τ).loc main_arg5)) := by
  dsimp only [V, hostOps0]
  after_results
  rfl

/-- Its second input holds the transposed weights. -/
theorem weightsT_eq (c : Dev nD) :
    (V m c main_call0_v18 : S128x128.Idx → EReal) = weightsT (m ((c : Thread nD τ).loc main_arg6)) := by
  dsimp only [V, hostOps0]
  after_results
  rfl

/-- The bias row at feature `o`: `b[o] + g[o]`. -/
theorem biasRow_apply (b g : FVec Ideal S128 .f32) (u : Fin 1) (o : Fin 128) :
    biasRow b g (ix2 u o) = b (ix1 o) + g (ix1 o) := by
  unfold biasRow
  rw [shapeCast_a_1a_apply]
  rfl

/-- The transposed weights at `(d, o)`: `W[o, d]`. -/
theorem weightsT_apply (w : FVec Ideal S128x128 .f32) (d o : Fin 128) : weightsT w (ix2 d o) = w (ix2 o d) := by
  unfold weightsT
  rw [truncf_apply, transpose_ix2_apply]

end Cert.KernelIdeal.HostArrays

end
-- ==== Proof.KernelValue.lean ====
/-
  From blocks to the whole array: after the run the kernel's result array is the specification's function.

  The grid has 250 points. Point `t` is handed rows `8000·t … 8000·t + 7999` of `values` and of the pre-added gathered
  rows, the whole transposed weight matrix and the bias row, and writes back rows `8000·t … 8000·t + 7999` of the
  result. On those rows it stores the specification's function (KernelBlock), and the 250 row ranges cover all
  2 000 000 rows (row `n` is in point `n / 8000`'s block), so the whole array ends holding that function.
-/
import proofs.«144336_j33088428049082_2_alg».proof.Proof.Gen.KernelIdeal.Value
import proofs.«144336_j33088428049082_2_alg».proof.Proof.AverageSpec
import proofs.«144336_j33088428049082_2_alg».proof.Proof.KernelBlock
import proofs.«144336_j33088428049082_2_alg».proof.Proof.KernelHost
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Cert.KernelIdeal.HostArrays Cert.KernelIdeal.Payload
open Cert.AverageSpec Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided once over the 250 points: the blocks of `values`, of the gathered rows and of the
    result move down the rows with the point, the weights' and the bias row's block stays where it is. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of point `t`'s block is row `8000·t + p` of the array. -/
def rowAt (t : Fin cfg0.N) (p : Fin 8000) : Fin 2000000 :=
  ⟨t.val * 8000 + p.val, by have := t.isLt; have hN : cfg0.N = 250 := N_0; have := p.isLt; omega⟩

/-- The argument arrays as launched, each at its array type: `values`, -/
abbrev argValues (c : Dev nD) : Rows.Idx → EReal := m ((c : Thread nD τ).loc main_arg0)
/-- the weights `W`, -/
abbrev argWeights (c : Dev nD) : Weights.Idx → EReal := m ((c : Thread nD τ).loc main_arg6)
/-- the bias `b`, -/
abbrev argBias (c : Dev nD) : Feat.Idx → EReal := m ((c : Thread nD τ).loc main_arg7)
/-- the global features `g`, -/
abbrev argGlobal (c : Dev nD) : Feat.Idx → EReal := m ((c : Thread nD τ).loc main_arg5)
/-- and the kernel's two gathered arrays `S` and `U`. -/
abbrev gatheredScene (c : Dev nD) : Rows.Idx → EReal :=
  sceneRows (m ((c : Thread nD τ).loc main_arg2)) (m ((c : Thread nD τ).loc main_arg3))
abbrev gatheredView (c : Dev nD) : Rows.Idx → EReal :=
  viewRows (m ((c : Thread nD τ).loc main_arg1)) (m ((c : Thread nD τ).loc main_arg4))

/-- The result the kernel's array ends holding: the specification's function of the arguments and of the kernel's two
    gathered arrays. -/
abbrev result (c : Dev nD) : Buf (Elt Ideal) ((c : Thread nD τ).loc main_v0) :=
  averaged (argValues m c) (argWeights m c) (argBias m c) (argGlobal m c) (gatheredScene m c) (gatheredView m c)

/-- The block of `values` at point `t`: its row `p` is row `8000·t + p` of `values`. -/
theorem values_block (c : Dev nD) (t : Fin cfg0.N) (p : Fin 8000) (k : Fin 128) :
    (iblk m c 0 t : Vec Ideal S8000x128 .f32) (ix2 p k)
      = argValues m c (ix2 (rowAt t p) k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 8000 + 1 * p.val = t.val * 8000 + p.val; rw [e0]; omega
  | ⟨1, _⟩ => show win0_0.index t (1 : Fin 2) * 128 + 1 * k.val = k.val; rw [e1]; omega

/-- The block of the transposed weights at any point is the whole matrix: entry `(k, q)` is `W[q, k]`. -/
theorem weights_block (c : Dev nD) (t : Fin cfg0.N) (k q : Fin 128) :
    (iblk m c 1 t : Vec Ideal S128x128 .bf16) (ix2 k q) = argWeights m c (ix2 q k) := by
  obtain ⟨-, -, e0, e1, -⟩ := idx_facts t
  have hemb : ((cfg0.win 1).blk t).view.emb (ix2 k q) = ix2 k q := by
    funext a
    apply Fin.ext
    match a with
    | ⟨0, _⟩ => show win0_1.index t (0 : Fin 2) * 128 + 1 * k.val = k.val; rw [e0]; omega
    | ⟨1, _⟩ => show win0_1.index t (1 : Fin 2) * 128 + 1 * q.val = q.val; rw [e1]; omega
  unfold iblk
  rw [View.read_apply, hemb]
  show V m c main_call0_v18 _ = _
  rw [weightsT_eq, weightsT_apply]

/-- The block of the bias row at any point is the whole row: entry `q` is `b[q] + g[q]`. -/
theorem bias_block (c : Dev nD) (t : Fin cfg0.N) (q : Fin 128) :
    (iblk m c 2 t : Vec Ideal S1x128 .f32) (ix2 (0 : Fin 1) q) = argBias m c (ix1 q) + argGlobal m c (ix1 q) := by
  obtain ⟨-, -, -, -, e0, e1, -⟩ := idx_facts t
  have hemb : ((cfg0.win 2).blk t).view.emb (ix2 (0 : Fin 1) q) = ix2 (0 : Fin 1) q := by
    funext a
    apply Fin.ext
    match a with
    | ⟨0, _⟩ => show win0_2.index t (0 : Fin 2) * 1 + 1 * 0 = 0; rw [e0]
    | ⟨1, _⟩ => show win0_2.index t (1 : Fin 2) * 128 + 1 * q.val = q.val; rw [e1]; omega
  unfold iblk
  rw [View.read_apply, hemb]
  show V m c main_call0_v16 _ = _
  rw [biasRow_eq, biasRow_apply]

/-- The block of the pre-added gathered rows at point `t`: its row `p` is row `8000·t + p` of `S + U`. -/
theorem gathered_block (c : Dev nD) (t : Fin cfg0.N) (p : Fin 8000) (q : Fin 128) :
    (iblk m c 3 t : Vec Ideal S8000x128 .f32) (ix2 p q)
      = gatheredScene m c (ix2 (rowAt t p) q) + gatheredView m c (ix2 (rowAt t p) q) := by
  obtain ⟨-, -, -, -, -, -, e0, e1, -⟩ := idx_facts t
  have hemb : ((cfg0.win 3).blk t).view.emb (ix2 p q) = ix2 (rowAt t p) q := by
    funext a
    apply Fin.ext
    match a with
    | ⟨0, _⟩ => show win0_3.index t (0 : Fin 2) * 8000 + 1 * p.val = t.val * 8000 + p.val; rw [e0]; omega
    | ⟨1, _⟩ => show win0_3.index t (1 : Fin 2) * 128 + 1 * q.val = q.val; rw [e1]; omega
  unfold iblk
  rw [View.read_apply, hemb]
  exact gathered_apply m c _

/-- WHAT POINT `t` WRITES BACK is block `t` of the specification's function. -/
theorem flushed_eq (c : Dev nD) (t : Fin cfg0.N) :
    (dats m 0 c).flushed 4 t = ((cfg0.win 4).blk t).view.read (Elt Ideal) (result m c) := by
  obtain ⟨-, -, -, -, -, -, -, -, e0, e1⟩ := idx_facts t
  rw [flushed4]
  unfold out0_4
  rw [View.canon_unit_zero hz]
  simp only [View.ld_unit_zero (S := S8000x128) hz, View.ld_unit_zero (S := S128x128) hz, View.ld_unit_zero (S := S1x128) hz]
  funext j
  obtain ⟨p, q, rfl⟩ : ∃ (p : Fin 8000) (q : Fin 128), j = ix2 p q := ⟨j 0, j 1, eq_ix2 j⟩
  have hemb : ((cfg0.win 4).blk t).view.emb (ix2 p q) = ix2 (rowAt t p) q := by
    funext a
    apply Fin.ext
    match a with
    | ⟨0, _⟩ => show win0_4.index t (0 : Fin 2) * 8000 + 1 * p.val = t.val * 8000 + p.val; rw [e0]; omega
    | ⟨1, _⟩ => show win0_4.index t (1 : Fin 2) * 128 + 1 * q.val = q.val; rw [e1]; omega
  show k0_pay1 (iblk m c 0 t) (iblk m c 1 t) (iblk m c 3 t) (iblk m c 2 t) (ix2 p q)
    = result m c (((cfg0.win 4).blk t).view.emb (ix2 p q))
  rw [hemb]
  exact payload_eq_averagedAt (iblk m c 0 t) (iblk m c 1 t) (iblk m c 3 t) (iblk m c 2 t)
    (argValues m c) (argWeights m c) (argBias m c) (argGlobal m c) (gatheredScene m c) (gatheredView m c)
    (rowAt t) (values_block m c t) (weights_block m c t) (gathered_block m c t) (bias_block m c t) p q

/-- An index of the array is in point `t`'s block iff each coordinate is in the block's range on its axis. -/
theorem mem_blk (t : Fin cfg0.N) (i : S2000000x128.Idx) :
    i ∈ ((cfg0.win 4).blk t).view.set ↔ ∀ a : Fin 2, win0_4.index t a * S8000x128.size a ≤ (i a).val
      ∧ (i a).val < win0_4.index t a * S8000x128.size a + S8000x128.size a := by
  show i ∈ ((View.whole main_v0).slice (win0_4.rect t)).set ↔ _
  rw [View.set_slice_whole, Rect.mem_set_unit]
  exact Iff.rfl

/-- Every row of the array is in some point's block: row `n` in point `n / 8000`'s. -/
theorem covered (i : S2000000x128.Idx) :
    ∃ t : Fin cfg0.N, (cfg0.win 4).flush t = true ∧ i ∈ ((cfg0.win 4).blk t).view.set := by
  have hi0 : (i 0).val < 2000000 := (i 0).isLt
  have hi1 : (i 1).val < 128 := (i 1).isLt
  have hN : cfg0.N = 250 := N_0
  obtain ⟨t, ht⟩ : ∃ t : Fin cfg0.N, t.val = (i 0).val / 8000 := ⟨⟨(i 0).val / 8000, by rw [hN]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 8000 ≤ (i 0).val ∧ (i 0).val < win0_4.index t (0 : Fin 2) * 8000 + 8000
    rw [e0, ht]; omega
  | ⟨1, _⟩ =>
    show win0_4.index t (1 : Fin 2) * 128 ≤ (i 1).val ∧ (i 1).val < win0_4.index t (1 : Fin 2) * 128 + 128
    rw [e1]; omega

/-- THE ARRAY after the run is the specification's function. -/
theorem final (c : Dev nD) : (dats m 0 c).arrAt 4 cfg0.N = result m c :=
  (dats m 0 c).arrAt_eq_of_cover 4 (result m c) (fun t _ => flushed_eq m c t) covered

/-- The kernel's run, read: the result array at the specification's function, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Blocks

end
-- ==== Proof.ReferenceValue.lean ====
/-
  The reference computes the specification's function.

  Read stage by stage, the reference's result at row `n`, feature `o` is

      ((((Σ_d values[n, d] · W[o, d]  +  b[o])  +  S[n, o])  +  U[n, o])  +  g[o]) · ¼

  with `S` and `U` its two gathered arrays: the linear layer is a `dot_general` contracting the second axis of both
  operands, each bias is a vector laid as one row and spread over all rows, and the summands are added left to
  right. That is `AverageSpec.averaged` as it is written, so nothing but the index bookkeeping is left.
-/
import proofs.«144336_j33088428049082_2_alg».proof.Proof.Gen.ReferenceIdeal.Read
import proofs.«144336_j33088428049082_2_alg».proof.Proof.AverageSpec

noncomputable section

namespace Cert.ReferenceIdeal.RefValue

open Cert.ReferenceIdeal Cert.ReferenceIdeal.Read Idealize.ShloMosaic Idealize.ShloMosaic.ValueIdx Cert.AverageSpec
open scoped BigOperators

/-- The reference's last stage is the specification's function of the arguments and of the reference's two gathered
    arrays. -/
theorem result_eq (x0 : S2000000x128.Idx → EReal) (x1 x2 : (⟨S2000000, .i32⟩ : BufTy).Contents (Elt Ideal))
    (x3 : S200000x128.Idx → EReal) (x4 : S2000x128.Idx → EReal) (x5 : S128.Idx → EReal) (x6 : S128x128.Idx → EReal)
    (x7 : S128.Idx → EReal) :
    val_main_v24 (F := Ideal) x0 x1 x2 x3 x4 x5 x6 x7
      = averaged x0 x6 x7 x5 (val_main_v10 (F := Ideal) x2 x3) (val_main_v18 (F := Ideal) x1 x4) := by
  funext i
  obtain ⟨n, o, rfl⟩ : ∃ (n : Fin 2000000) (o : Fin 128), i = ix2 n o := ⟨i 0, i 1, eq_ix2 i⟩
  -- the operands of the product at contraction position `d`: row `n` of `values`, row `o` of `W`
  have el : ∀ d : Fin 128, lidx_main_v0 (ix2 n o) d = ix2 n d := fun d => funext fun a => Fin.ext (by
    match a with
    | ⟨0, _⟩ => rfl
    | ⟨1, _⟩ => rfl)
  have er : ∀ d : Fin 128, ridx_main_v0 (ix2 n o) d = ix2 o d := fun d => funext fun a => Fin.ext (by
    match a with
    | ⟨0, _⟩ => rfl
    | ⟨1, _⟩ => rfl)
  -- a vector laid as one row and spread over the rows reads its entry `o`
  have eb : idx_main_v1 (idx_main_v2 (ix2 n o)) = ix1 o := funext fun a => Fin.ext (by
    match a with
    | ⟨0, _⟩ => rfl)
  have eg : idx_main_v20 (idx_main_v21 (ix2 n o)) = ix1 o := funext fun a => Fin.ext (by
    match a with
    | ⟨0, _⟩ => rfl)
  rw [val_main_v24_apply, val_main_v22_apply, val_main_v19_apply, val_main_v11_apply, val_main_v3_apply,
    val_main_v0_apply, val_main_v2_apply, val_main_v1_apply, val_main_v21_apply, val_main_v20_apply,
    val_main_v23_apply, val_main_cst_apply]
  simp only [el, er, eb, eg, Ideal.addf_def, Ideal.mulf_def, Ideal.ofBits_def]
  rfl

end Cert.ReferenceIdeal.RefValue

end
-- ==== Proof.lean ====
/-
  The certificate's five claims for a fused "mean of four feature sources" layer over two million nonzero entries.

  Both programs compute, for a nonzero entry `n` and an output feature `o`,

      out[n, o] = ( Σ_d values[n, d] · W[o, d]  +  b[o]  +  scene[col[n], o]  +  view[row[n], o]  +  g[o] ) · ¼ .

  The reference does it in one pass on the host, adding the five summands left to right. The kernel's program
  first gathers and adds the two table rows on the host, adds the two bias vectors and transposes the weights, and then a
  gridded kernel over 250 blocks of 8000 rows multiplies each block of `values` by the transposed weights on the
  matrix unit and adds the other two inputs.

  * The three frames: the kernel's two are generated whole; the reference has no kernel, and its frame is its generated
    run with the result dropped.
  * `preserves`: the idealization rewrote nothing, so there is nothing to state.
  * `algebraic`: at the ideal values the kernel's result array is the specification's function of the arguments
    (KernelValue: block by block, then the blocks cover the array) and so is the reference's (ReferenceValue). The two
    differ only in how the five summands are grouped, and addition of extended reals is commutative and associative at
    every value, so the precondition is never opened. The two gathered arrays are the same term on both sides (the same
    gather of the same table at the same indices) and are never read.
-/
import proofs.«144336_j33088428049082_2_alg».proof.Defs
import proofs.«144336_j33088428049082_2_alg».proof.Proof.Gen.Kernel
import proofs.«144336_j33088428049082_2_alg».proof.Proof.Gen.Kernel.Frame
import proofs.«144336_j33088428049082_2_alg».proof.Proof.Gen.KernelIdeal
import proofs.«144336_j33088428049082_2_alg».proof.Proof.Gen.KernelIdeal.Frame
import proofs.«144336_j33088428049082_2_alg».proof.Proof.Gen.KernelIdeal.Value
import proofs.«144336_j33088428049082_2_alg».proof.Proof.Gen.ReferenceIdeal
import proofs.«144336_j33088428049082_2_alg».proof.Proof.Gen.ReferenceIdeal.Run
import proofs.«144336_j33088428049082_2_alg».proof.Proof.Gen.ReferenceIdeal.Read
import proofs.«144336_j33088428049082_2_alg».proof.Proof.Gen.Pre_finite_inputs
import proofs.«144336_j33088428049082_2_alg».proof.Proof.KernelValue
import proofs.«144336_j33088428049082_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specification's function in their result
    array: the kernel's by `Blocks.run`, the reference's by its run and `RefValue.result_eq`; the two gathered arrays are
    one term once the arguments are identified. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v24_eq, Cert.ReferenceIdeal.RefValue.result_eq, h0, h1, h2, h3, h4, h5, h6, h7]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
